-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1 : Shape := ⟨1, ![1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S4096x4096 .f32) (main_arg1 : FVec F S4096x4096 .f32) (main_arg2 : FVec F S1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4096x4096 : Shape := ⟨2, ![4096, 4096]⟩
abbrev S1 : Shape := ⟨1, ![1]⟩
abbrev S_ : Shape := ⟨0, ![]⟩
abbrev S4096 : Shape := ⟨1, ![4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x4096, .bf16⟩
  | .hbm, ⟨9, _⟩ => ⟨S4096x4096, .bf16⟩
  | .hbm, ⟨10, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S1_S4096_0 : S1.BroadcastsInDim S4096 (![0] : Fin 1 → Fin S4096.rank)
  shapeCasts_S4096_S1x4096 : S4096.ShapeCasts S1x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .bf16 = 32 ∨ (Rect.block (s := S4096x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_call0_v4) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S1 : Shape := ⟨1, ![1]⟩
abbrev S_ : Shape := ⟨0, ![]⟩
abbrev S4096 : Shape := ⟨1, ![4096]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S1_S4096_0 : S1.BroadcastsInDim S4096 (![0] : Fin 1 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.BlockSum.lean ====
/-
  The mathematics of the certificate, with no program in sight.

  Both programs compute, for a batch row `b` and an output feature `o`,

      out (b, o) = max ( Σ_{j < 4096} X (b, j) · W (o, j)  +  (β − Σ_{j < 4096} W (o, j)) , 0 )

  on the extended reals.  The reference takes the contraction as ONE sum over the 4096 input features; the kernel
  takes it as four partial sums over consecutive stretches of 1024 features, added one after the other onto a
  zero.  The only law that joins the two is that a sum over `j < 4096` is the sum over `s < 4` of the sums over
  `k < 1024` of the terms at `j = 1024·s + k` — a re-indexing along the bijection (s, k) ↦ 1024·s + k, together
  with associativity of `+`.  Addition of extended reals is a commutative monoid, so nothing here asks the
  entries to be finite.
-/
import Idealize.ShloMosaic.PureOps.Ideal
import Idealize.ShloMosaic.Lib.ValueIdx

noncomputable section

namespace Cert.Dense

open Idealize.ShloMosaic Idealize.ShloMosaic.ValueIdx

/-- The feature `1024·s + k`: feature `k` of the `s`-th stretch of 1024. -/
def feat (s : Fin 4) (k : Fin 1024) : Fin 4096 := ⟨1024 * s.val + k.val, by omega⟩

/-- The result both programs compute at batch row `b`, output feature `o`: the rectified sum of the row's
    product with `W`'s row `o` and the bias `β − Σ_j W (o, j)`. -/
def out (X W : (⟨2, ![4096, 4096]⟩ : Shape).Idx → EReal) (β : EReal) (b o : Fin 4096) : EReal :=
  max ((∑ j : Fin 4096, X (ix2 b j) * W (ix2 o j)) + (β - ∑ j : Fin 4096, W (ix2 o j))) 0

/-- A sum over the 4096 features is the sum over the four stretches of the sums inside each stretch. -/
theorem sum_stretches (f : Fin 4096 → EReal) :
    ∑ j : Fin 4096, f j = ∑ s : Fin 4, ∑ k : Fin 1024, f (feat s k) := by
  rw [← Equiv.sum_comp (finProdFinEquiv (m := 4) (n := 1024)) f, Fintype.sum_prod_type]
  refine Finset.sum_congr rfl fun s _ => Finset.sum_congr rfl fun k _ => congrArg f (Fin.ext ?_)
  show k.val + 1024 * s.val = 1024 * s.val + k.val
  omega

/-- The kernel's order of addition: zero, plus the first three stretches' sums, plus the fourth's, is the whole
    sum. `h` is the sequence of partial sums as the run numbers them (`h (n + s)` the stretch `s` of the run that
    starts at point `n`). -/
theorem acc_stretches (f : Fin 4096 → EReal) (h : ℕ → EReal) (n : ℕ)
    (hh : ∀ s : Fin 4, h (n + s.val) = ∑ k : Fin 1024, f (feat s k)) :
    (0 + ∑ s ∈ Finset.range 3, h (n + s)) + h (n + 3) = ∑ j : Fin 4096, f j := by
  rw [sum_stretches, Fin.sum_univ_four, ← hh 0, ← hh 1, ← hh 2, ← hh 3, zero_add,
    Finset.sum_range_succ, Finset.sum_range_succ, Finset.sum_range_one]
  rfl

end Cert.Dense

end
-- ==== Proof.RefSide.lean ====
/-
  The reference program's result, read at an index, is the specification `Cert.Dense.out`.

  The reference computes the bias vector β − Σ_j W (o, j), the full product Σ_j X (b, j) · W (o, j) as one
  contraction over the 4096 features, adds the bias broadcast along the batch axis and rectifies against zero.
  Read one operation at a time (the generated read-at-an-index lemmas), entry (b, o) is
  max (Σ_j X (b, j) · W (o, j) + (β − (0 + Σ_j W (o, j))), 0), and 0 + s = s.
-/
import proofs.«127356_j82205674045457_2_alg».proof.Proof.Gen.ReferenceIdeal.Read
import proofs.«127356_j82205674045457_2_alg».proof.Proof.BlockSum

noncomputable section

namespace Cert.ReferenceIdeal.RefValue

open Cert.ReferenceIdeal Cert.ReferenceIdeal.Gen Cert.ReferenceIdeal.Read Idealize.ShloMosaic Idealize.ShloMosaic.ValueIdx

/-- Entry (b, o) of the reference's result is the specification at (b, o). -/
theorem result_apply (X W : (⟨S4096x4096, .f32⟩ : BufTy).Contents (Elt Ideal)) (β : (⟨S1, .f32⟩ : BufTy).Contents (Elt Ideal))
    (b o : Fin 4096) :
    val_main_v7 (F := Ideal) X W β (ix2 b o) = Cert.Dense.out X W (β (ix1 (0 : Fin 1))) b o := by
  have el : ∀ k : Fin 4096, lidx_main_v3 (ix2 b o) k = ix2 b k := fun k =>
    funext fun a => Fin.ext (by match a with | ⟨0, _⟩ => rfl | ⟨1, _⟩ => rfl)
  have er : ∀ k : Fin 4096, ridx_main_v3 (ix2 b o) k = ix2 o k := fun k =>
    funext fun a => Fin.ext (by match a with | ⟨0, _⟩ => rfl | ⟨1, _⟩ => rfl)
  have es : ∀ k : Fin 4096, idx_main_v0 (idx_main_v4 (idx_main_v5 (ix2 b o))) k = ix2 o k := fun k =>
    funext fun a => Fin.ext (by match a with | ⟨0, _⟩ => rfl | ⟨1, _⟩ => rfl)
  have eb : idx_main_v1 (idx_main_v4 (idx_main_v5 (ix2 b o))) = ix1 (0 : Fin 1) :=
    funext fun a => Fin.ext (by match a with | ⟨0, _⟩ => rfl)
  unfold Cert.Dense.out
  rw [val_main_v7_apply, val_main_v6_apply, val_main_v3_apply, val_main_v5_apply, val_main_v4_apply, val_main_v2_apply,
    val_main_v1_apply, val_main_v0_apply, val_main_call0_v0_apply, val_main_call0_cst_apply, val_main_cst_apply]
  simp only [el, er, es, eb, Ideal.maximumf_def, Ideal.addf_def, Ideal.subf_def, Ideal.ofBits_def, Ideal.ofBits_zero_f32, zero_add]

end Cert.ReferenceIdeal.RefValue

end
-- ==== Proof.Payload.lean ====
/-
  The kernel body's three stored values, read at an index of the [2048, 1024] output block at the ideal values.

  * the reset value is zero everywhere;
  * the accumulating value at (p, q) is what the block held there plus Σ_{k < 1024} a (p, k) · b (q, k), for the
    [2048, 1024] block `a` of the left operand and the [1024, 1024] block `b` of the right one (both operands are
    contracted along their SECOND axis: the product is a · bᵀ);
  * the closing value at (p, q) is max (v (p, q) + bias (0, q), 0): the one-row bias block is broadcast down the
    rows and the sum rectified.
-/
import proofs.«127356_j82205674045457_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The block's contraction record, under a short name. -/
abbrev D : DotDims S2048x1024 S1024x1024 S2048x1024 := dot_S2048x1024_S1024x1024_S2048x1024_1_1_0_0_n_n

/-- The left operand is read at the output's row … -/
theorem lhs_row (i : S2048x1024.Idx) (q : D.contr.Idx) : (D.lhsIdx i q 0).val = (i 0).val := by
  unfold DotDims.lhsIdx
  rw [dif_neg (show ¬(0 : Fin S2048x1024.rank) ∈ D.lhsBatch by decide),
    dif_pos (show (0 : Fin S2048x1024.rank) ∈ D.lhsNonContracting by decide)]
  rfl
/-- … and the contracted feature; -/
theorem lhs_feat (i : S2048x1024.Idx) (q : D.contr.Idx) : (D.lhsIdx i q 1).val = (q ⟨0, by decide⟩).val :=
  D.lhsIdx_val_of_single rfl i q
/-- the right operand at the output's COLUMN (its own row) … -/
theorem rhs_row (i : S2048x1024.Idx) (q : D.contr.Idx) : (D.rhsIdx i q 0).val = (i 1).val := by
  unfold DotDims.rhsIdx
  rw [dif_neg (show ¬(0 : Fin S1024x1024.rank) ∈ D.rhsBatch by decide),
    dif_pos (show (0 : Fin S1024x1024.rank) ∈ D.rhsNonContracting by decide)]
  rfl
/-- … and the contracted feature. -/
theorem rhs_feat (i : S2048x1024.Idx) (q : D.contr.Idx) : (D.rhsIdx i q 1).val = (q ⟨0, by decide⟩).val :=
  D.rhsIdx_val_of_single rfl i q

/-- The block product into a zero accumulator, at (p, q): Σ_k a (p, k) · b (q, k). -/
theorem product_apply (a : FVec Ideal S2048x1024 .bf16) (b : FVec Ideal S1024x1024 .bf16) (p : Fin 2048) (q : Fin 1024) :
    FloatOps.matmul D none a b (constant (F := Ideal) S2048x1024 .f32 0x00000000#32) (ix2 p q)
      = ∑ k : Fin 1024, a (ix2 p k) * b (ix2 q k) := by
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun x => Fin.ext (by
    match x with
    | ⟨0, _⟩ => exact lhs_row _ _
    | ⟨1, _⟩ => exact (lhs_feat _ _).trans hk)
  have er : D.rhsIdx (ix2 p q) ((contrEquiv1 D 1024 rfl rfl).symm k) = ix2 q k := funext fun x => Fin.ext (by
    match x with
    | ⟨0, _⟩ => exact rhs_row _ _
    | ⟨1, _⟩ => exact (rhs_feat _ _).trans hk)
  rw [el, er]

/-- The reset value: zero. -/
theorem reset_apply (y : S2048x1024.Idx) : k0_pay1 (F := Ideal) y = 0 :=
  Ideal.ofBits_zero_f32

/-- The accumulating value is the block's contents plus the block product into a zero accumulator, entry by entry. -/
theorem accumulate_eq (a : FVec Ideal S2048x1024 .bf16) (b : FVec Ideal S1024x1024 .bf16) (acc : FVec Ideal S2048x1024 .f32)
    (y : S2048x1024.Idx) :
    k0_pay2 (F := Ideal) a b acc y
      = acc y + FloatOps.matmul D none a b (constant (F := Ideal) S2048x1024 .f32 0x00000000#32) y := by
  unfold k0_pay2
  simp only [shapeCast_self]
  rfl

/-- The accumulating value at (p, q): the block's contents there plus the block product there. -/
theorem accumulate_apply (a : FVec Ideal S2048x1024 .bf16) (b : FVec Ideal S1024x1024 .bf16) (acc : FVec Ideal S2048x1024 .f32)
    (p : Fin 2048) (q : Fin 1024) :
    k0_pay2 (F := Ideal) a b acc (ix2 p q) = acc (ix2 p q) + ∑ k : Fin 1024, a (ix2 p k) * b (ix2 q k) := by
  unfold k0_pay2
  simp only [shapeCast_self]
  exact congrArg (acc (ix2 p q) + ·) (product_apply a b p q)

/-- The closing value at (p, q): the accumulated value plus the bias row's entry `q`, rectified. -/
theorem close_apply (v : FVec Ideal S2048x1024 .f32) (bias : FVec Ideal S1x1024 .f32) (p : Fin 2048) (q : Fin 1024) :
    k0_pay3 (F := Ideal) v bias (ix2 p q) = max (v (ix2 p q) + bias (ix2 (0 : Fin 1) q)) 0 := by
  unfold k0_pay3
  simp only [shapeCast_self]
  show max (v (ix2 p q) + broadcastTo S2048x1024 bias broadcasts_S1x1024_S2048x1024 (ix2 p q)) (Ideal.ofBits .f32 0x00000000#32) = _
  rw [broadcastTo_1b_ab_apply, Ideal.ofBits_zero_f32]

end Cert.KernelIdeal.Payload

end
-- ==== Proof.Blocks.lean ====
/-
  What the kernel's three input windows hold at a grid point, in terms of the program's arguments.

  Before the region the program computes, from the arguments X (main_arg0), W (main_arg1) and β (main_arg2): the
  bias row  bias (0, o) = β − Σ_{j < 4096} W (o, j)  (a row sum, a subtraction from the broadcast scalar and a
  recast of the vector as one row), and the two operands rounded to a narrower format — at the ideal values a
  change of format is the identity, so the left operand IS X and the right operand IS W.

  The grid is 2 × 4 × 4; point `t` has coordinates (t / 16, t / 4 % 4, t % 4) = (row block, column block, stretch).
  At point `t`
  * the left window's block is rows  2048·(t / 16) + p  and features  1024·(t % 4) + k  of X,
  * the right window's block is rows  1024·(t / 4 % 4) + q  and the same features of W,
  * the bias window's block is entries  1024·(t / 4 % 4) + q  of the bias row.
-/
import proofs.«127356_j82205674045457_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo

/-! ## The bias row -/

/-- The bias row as the program computes it from W and β. -/
def biasRow (W : FVec Ideal S4096x4096 .f32) (β : FVec Ideal S1 .f32) : FVec Ideal S1x4096 .f32 :=
  shapeCast S1x4096
    (subf (broadcastInDim S4096 ![0] bcast_S1_S4096_0 β)
      (Host.reduceAdd (F := Ideal) W (constant (F := Ideal) S_ .f32 0x00000000#32) reducesTo_S4096x4096_S4096_d1 h_S_))
    shapeCasts_S4096_S1x4096

/-- Its entry `o` is β minus the sum of W's row `o`. -/
theorem biasRow_apply (W : FVec Ideal S4096x4096 .f32) (β : FVec Ideal S1 .f32) (o : Fin 4096) :
    biasRow W β (ix2 (0 : Fin 1) o) = β (ix1 (0 : Fin 1)) - ∑ j : Fin 4096, W (ix2 o j) := by
  unfold biasRow
  rw [shapeCast_a_1a_apply]
  show broadcastInDim S4096 ![0] bcast_S1_S4096_0 β (ix1 o) - Host.reduceAdd (F := Ideal) W _ reducesTo_S4096x4096_S4096_d1 h_S_ (ix1 o) = _
  rw [broadcastInDim_apply _ bcast_S1_S4096_0 β (ix1 o) (ix1 (0 : Fin 1)) (fun a => match a with
    | ⟨0, _⟩ => by show 0 = if (1 : Nat) = 1 then 0 else o.val; rw [if_pos rfl])]
  refine congrArg (β (ix1 (0 : Fin 1)) - ·) ?_
  simp only [Host.reduceAdd, Ideal.hostReduceAdd_def]
  rw [Ideal.hostReduceAdd_single reducesTo_S4096x4096_S4096_d1 (by decide)]
  show Ideal.ofBits .f32 0x00000000#32 + _ = _
  rw [Ideal.ofBits_zero_f32, zero_add]
  refine Finset.sum_congr rfl fun j _ => ?_
  exact congrArg W (funext fun a => Fin.ext (by match a with | ⟨0, _⟩ => rfl | ⟨1, _⟩ => rfl))

/-! ## The three operand arrays as the region finds them -/

variable (m : (ℓ : Loc nD τ sig) → Buf (Elt Ideal) ℓ)

/-- The program's three arguments on core `c`, as arrays of extended reals: X, W and the one-entry β. -/
abbrev argX (c : Dev nD) : FVec Ideal S4096x4096 .f32 := m ((c : Thread nD τ).loc main_arg0)
abbrev argW (c : Dev nD) : FVec Ideal S4096x4096 .f32 := m ((c : Thread nD τ).loc main_arg1)
abbrev argβ (c : Dev nD) : FVec Ideal S1 .f32 := m ((c : Thread nD τ).loc main_arg2)

/-- The left operand's array is X. -/
theorem V_left (c : Dev nD) : (V m c main_call0_v4 : S4096x4096.Idx → EReal) = argX m c := by
  dsimp only [Gen.V, Gen.hostOps0]
  after_results
  rfl

/-- The right operand's array is W. -/
theorem V_right (c : Dev nD) : (V m c main_call0_v5 : S4096x4096.Idx → EReal) = argW m c := by
  dsimp only [Gen.V, Gen.hostOps0]
  after_results
  rfl

/-- The bias operand's array is the bias row of W and β. -/
theorem V_bias (c : Dev nD) : (V m c main_call0_v3 : S1x4096.Idx → EReal) = biasRow (argW m c) (argβ m c) := by
  dsimp only [Gen.V, Gen.hostOps0]
  after_results
  rfl

/-! ## The windows' blocks -/

/-- The printed index maps at point `t`, decided over the 32 points: block indices (t / 16, t % 4) for the left
    window, (t / 4 % 4, t % 4) for the right one, (0, t / 4 % 4) for the bias. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4 :=
  (by decide +kernel : ∀ t : Fin grid0.N, _)

/-- The left block at (p, k) is X at row `b` = 2048·(t / 16) + p, feature `j` = 1024·(t % 4) + k. -/
theorem left_block (c : Dev nD) (t : Fin cfg0.N) (p : Fin 2048) (k : Fin 1024) (b j : Fin 4096)
    (hb : b.val = 2048 * (t.val / 16) + p.val) (hj : j.val = 1024 * (t.val % 4) + k.val) :
    (iblk m c 0 t : FVec Ideal S2048x1024 .bf16) (ix2 p k) = argX m c (ix2 b j) := by
  obtain ⟨e0, e1, -⟩ := idx_facts t
  unfold iblk
  rw [View.read_apply]
  show (V m c main_call0_v4 : S4096x4096.Idx → EReal) _ = _
  rw [V_left]
  refine congrArg (argX m c) (funext fun a => Fin.ext ?_)
  match a with
  | ⟨0, _⟩ => show win0_0.index t (0 : Fin 2) * 2048 + 1 * p.val = b.val; rw [e0, hb]; omega
  | ⟨1, _⟩ => show win0_0.index t (1 : Fin 2) * 1024 + 1 * k.val = j.val; rw [e1, hj]; omega

/-- The right block at (q, k) is W at row `o` = 1024·(t / 4 % 4) + q, feature `j` = 1024·(t % 4) + k. -/
theorem right_block (c : Dev nD) (t : Fin cfg0.N) (q k : Fin 1024) (o j : Fin 4096)
    (ho : o.val = 1024 * (t.val / 4 % 4) + q.val) (hj : j.val = 1024 * (t.val % 4) + k.val) :
    (iblk m c 1 t : FVec Ideal S1024x1024 .bf16) (ix2 q k) = argW m c (ix2 o j) := by
  obtain ⟨-, -, e0, e1, -⟩ := idx_facts t
  unfold iblk
  rw [View.read_apply]
  show (V m c main_call0_v5 : S4096x4096.Idx → EReal) _ = _
  rw [V_right]
  refine congrArg (argW m c) (funext fun a => Fin.ext ?_)
  match a with
  | ⟨0, _⟩ => show win0_1.index t (0 : Fin 2) * 1024 + 1 * q.val = o.val; rw [e0, ho]; omega
  | ⟨1, _⟩ => show win0_1.index t (1 : Fin 2) * 1024 + 1 * k.val = j.val; rw [e1, hj]; omega

/-- The bias block at (0, q) is β − Σ_j W (o, j) for `o` = 1024·(t / 4 % 4) + q. -/
theorem bias_block (c : Dev nD) (t : Fin cfg0.N) (q : Fin 1024) (o : Fin 4096)
    (ho : o.val = 1024 * (t.val / 4 % 4) + q.val) :
    (iblk m c 2 t : FVec Ideal S1x1024 .f32) (ix2 (0 : Fin 1) q)
      = argβ m c (ix1 (0 : Fin 1)) - ∑ j : Fin 4096, argW m c (ix2 o j) := by
  obtain ⟨-, -, -, -, e0, e1⟩ := idx_facts t
  unfold iblk
  rw [View.read_apply]
  show (V m c main_call0_v3 : S1x4096.Idx → EReal) _ = _
  rw [V_bias, ← biasRow_apply]
  refine congrArg (biasRow _ _) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = o.val; rw [e1, ho]; omega

end Cert.KernelIdeal.Blocks

end
-- ==== Proof.Fold.lean ====
/-
  The kernel's result array, read at an index, is the specification `Cert.Dense.out`.

  The output block (row block, column block) is visited at four consecutive grid points n, n+1, n+2, n+3 (n a
  multiple of 4), one per stretch of 1024 features.  The first point resets the block to zero and adds its block
  product; the next two add theirs; the last adds its own, then adds the bias row's block and rectifies.  So the
  block ends, at (p, q), holding

      max ( ((0 + Σ_{s<3} P (n+s)) + P (n+3)) + bias , 0 ),     P t = Σ_{k<1024} X (b, 1024·(t%4) + k) · W (o, 1024·(t%4) + k)

  with b = 2048·(row block) + p and o = 1024·(column block) + q, and the four partial sums make the whole
  contraction (BlockSum).
-/
import proofs.«127356_j82205674045457_2_alg».proof.Proof.Gen.KernelIdeal.Value
import proofs.«127356_j82205674045457_2_alg».proof.Proof.BlockSum
import proofs.«127356_j82205674045457_2_alg».proof.Proof.Payload
import proofs.«127356_j82205674045457_2_alg».proof.Proof.Blocks

noncomputable section

namespace Cert.KernelIdeal.Fold

open Cert.KernelIdeal Cert.KernelIdeal.Gen Cert.KernelIdeal.Blocks Idealize.ShloMosaic Idealize.ShloMosaic.TcCoe
open Idealize.ShloMosaic.ValueIdx Idealize.SL.Sem

variable (m : (ℓ : Loc nD τ sig) → Buf (Elt Ideal) ℓ)

/-- What grid point `n` adds to its output block: the product of its left and right blocks (zero past the grid,
    where it is never read). -/
def addend (c : Dev nD) (n : ℕ) (y : S2048x1024.Idx) : EReal :=
  if h : n < cfg0.N then
    FloatOps.matmul (φ₁ := .bf16) (φ₂ := .bf16) Payload.D none (iblk m c 0 ⟨n, h⟩) (iblk m c 1 ⟨n, h⟩)
      (constant (F := Ideal) S2048x1024 .f32 0x00000000#32) y
  else 0

/-- Point `n`'s addend at (p, q) is the partial contraction over the point's stretch of features, for the row
    `b` of X and the row `o` of W that (p, q) stand for in the point's blocks. -/
theorem addend_apply (c : Dev nD) (n : ℕ) (h : n < cfg0.N) (p : Fin 2048) (q : Fin 1024) (b o : Fin 4096) (s : Fin 4)
    (hb : b.val = 2048 * (n / 16) + p.val) (ho : o.val = 1024 * (n / 4 % 4) + q.val) (hs : n % 4 = s.val) :
    addend m c n (ix2 p q) = ∑ k : Fin 1024, argX m c (ix2 b (Cert.Dense.feat s k)) * argW m c (ix2 o (Cert.Dense.feat s k)) := by
  unfold addend
  rw [dif_pos h]
  refine (Payload.product_apply _ _ p q).trans (Finset.sum_congr rfl fun k _ => ?_)
  rw [left_block m c ⟨n, h⟩ p k b (Cert.Dense.feat s k) hb (by show 1024 * s.val + k.val = 1024 * (n % 4) + k.val; rw [hs]),
    right_block m c ⟨n, h⟩ q k o (Cert.Dense.feat s k) ho (by show 1024 * s.val + k.val = 1024 * (n % 4) + k.val; rw [hs])]

/-- The output block after the run n … n+3, at (p, q), is the specification at (b, o). -/
theorem run_apply (c : Dev nD) (n : ℕ) (hn : n % 4 = 0) (h : n + 3 < cfg0.N) (p : Fin 2048) (q : Fin 1024) (b o : Fin 4096)
    (hb : b.val = 2048 * (n / 16) + p.val) (ho : o.val = 1024 * (n / 4 % 4) + q.val) :
    Pipeline.accAt (Value.reset3 m c) (Value.step3 m c) n 3 h (ix2 p q)
      = Cert.Dense.out (argX m c) (argW m c) (argβ m c (ix1 (0 : Fin 1))) b o := by
  have hN : cfg0.N = 32 := N_0
  -- the first three points: zero plus their addends
  have h2 : Pipeline.accAt (Value.reset3 m c) (Value.step3 m c) n 2 (by omega) (ix2 p q)
      = k0_pay1 (F := Ideal) (ix2 p q) + ∑ s ∈ Finset.range (2 + 1), addend m c (n + s) (ix2 p q) :=
    Pipeline.accAt_add_apply (ι := S2048x1024.Idx) (β := EReal) (Value.reset3 m c) (Value.step3 m c) (k0_pay1 (F := Ideal))
      (addend m c) n 2
      (fun h0 y => by
        unfold Value.reset3 addend
        rw [dif_pos h0]
        exact Payload.accumulate_eq _ _ _ y)
      (fun n' h' acc y hlt hle => by
        unfold Value.step3 addend
        rw [if_pos ⟨by omega, by omega⟩, dif_pos h']
        exact Payload.accumulate_eq _ _ _ y)
      2 le_rfl (by omega) (ix2 p q)
  -- the last point: its addend, the bias, the rectification
  have hlast : ∀ acc : Vec Ideal S2048x1024 .f32, Value.step3 m c (n + (2 + 1)) h acc
      = k0_pay3 (k0_pay2 (iblk m c 0 ⟨n + (2 + 1), h⟩) (iblk m c 1 ⟨n + (2 + 1), h⟩) acc) (iblk m c 2 ⟨n + (2 + 1), h⟩) := fun acc => by
    unfold Value.step3
    rw [if_neg (by omega), if_pos ⟨by omega, by omega⟩]
  rw [Pipeline.accAt_succ, hlast]
  refine (Payload.close_apply _ _ p q).trans ?_
  rw [Payload.accumulate_eq, h2, Payload.reset_apply,
    bias_block m c ⟨n + (2 + 1), h⟩ q o (by show o.val = 1024 * ((n + (2 + 1)) / 4 % 4) + q.val; omega)]
  unfold Cert.Dense.out
  have e3 : FloatOps.matmul (φ₁ := .bf16) (φ₂ := .bf16) Payload.D none (iblk m c 0 ⟨n + (2 + 1), h⟩)
      (iblk m c 1 ⟨n + (2 + 1), h⟩) (constant (F := Ideal) S2048x1024 .f32 0x00000000#32) (ix2 p q)
      = addend m c (n + 3) (ix2 p q) := by
    unfold addend
    rw [dif_pos h]
  rw [e3]
  have hsum := Cert.Dense.acc_stretches (fun j => argX m c (ix2 b j) * argW m c (ix2 o j)) (fun t => addend m c t (ix2 p q)) n
    (fun s => addend_apply m c (n + s.val) (by have := s.isLt; omega) p q b o s
      (by have := s.isLt; rw [hb]; omega) (by have := s.isLt; rw [ho]; omega) (by have := s.isLt; omega))
  rw [hsum]

/-- Entry (b, o) of the kernel's result array is the specification at (b, o). -/
theorem G3_apply (c : Dev nD) (b o : Fin 4096) :
    Value.G3 m c (ix2 b o) = Cert.Dense.out (argX m c) (argW m c) (argβ m c (ix1 (0 : Fin 1))) b o := by
  have hN : cfg0.N = 32 := N_0
  have hb := b.isLt
  have ho := o.isLt
  have hr : Value.run3Of (ix2 b o) = 4 * (b.val / 2048) + o.val / 1024 := by
    show 4 * (b.val / 2048 - 0) + 1 * (o.val / 1024 - 0) = _
    omega
  unfold Value.G3
  rw [dif_pos (by rw [hr, hN]; omega)]
  have hl : Value.loc3Of (ix2 b o) = ix2 (⟨b.val % 2048, Nat.mod_lt _ (by decide)⟩ : Fin 2048) (⟨o.val % 1024, Nat.mod_lt _ (by decide)⟩ : Fin 1024) :=
    funext fun a => Fin.ext (by match a with | ⟨0, _⟩ => rfl | ⟨1, _⟩ => rfl)
  rw [hl]
  exact run_apply m c (4 * Value.run3Of (ix2 b o)) (by omega) _ _ _ b o
    (by show b.val = 2048 * (4 * Value.run3Of (ix2 b o) / 16) + b.val % 2048; rw [hr]; omega)
    (by show o.val = 1024 * (4 * Value.run3Of (ix2 b o) / 4 % 4) + o.val % 1024; rw [hr]; omega)

end Cert.KernelIdeal.Fold

end
-- ==== Proof.lean ====
/-
  The certificate: a dense layer with a folded bias,  relu (x · Wᵀ + (β − row sums of W)),  computed by a kernel
  that tiles the 4096 × 4096 result into 2048 × 1024 blocks and accumulates each block's contraction over four
  stretches of 1024 input features, against the reference that takes the contraction in one piece.

  At the ideal values both programs end, at batch row `b` and output feature `o`, holding

      max ( Σ_{j < 4096} X (b, j) · W (o, j) + (β − Σ_{j < 4096} W (o, j)) , 0 )

  (`Cert.Dense.out`): the reference by reading its operations one at a time (RefSide), the kernel by unrolling the
  fold its four visits of a block leave there, reading the three windows' blocks as pieces of X, W and the bias
  row, and joining the four partial sums into the one sum (Fold, over Payload, Blocks and BlockSum).  The only
  algebra is associativity of addition and a re-indexing of a finite sum, so the precondition that the inputs are
  finite is never opened.  The frames are the generated ones (the kernel's run with the result dropped, the
  reference's run with the result dropped), and the idealized kernel is the kernel's own text read at the ideal
  values: the ledger of rewrites is empty.
-/
import proofs.«127356_j82205674045457_2_alg».proof.Defs
import proofs.«127356_j82205674045457_2_alg».proof.Proof.Gen.Kernel.Frame
import proofs.«127356_j82205674045457_2_alg».proof.Proof.Gen.KernelIdeal.Value
import proofs.«127356_j82205674045457_2_alg».proof.Proof.Gen.Pre_finite_inputs
import proofs.«127356_j82205674045457_2_alg».proof.Proof.Gen.ReferenceIdeal.Run
import proofs.«127356_j82205674045457_2_alg».proof.Proof.RefSide
import proofs.«127356_j82205674045457_2_alg».proof.Proof.Fold
import Idealize.ShloMosaic.Adequacy
import Idealize.ShloMosaic.Init

noncomputable section

namespace Cert.Proof

open Idealize.ShloMosaic Idealize.ShloMosaic.ValueIdx Idealize.SL.Sem

/-- The reference's result, as a function of the kernel program's arguments, is the kernel's result array: entry by
    entry both are the specification. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v7 (F := Ideal) (Cert.KernelIdeal.Blocks.argX m c) (Cert.KernelIdeal.Blocks.argW m c)
        (Cert.KernelIdeal.Blocks.argβ m c)
      = Cert.KernelIdeal.Value.G3 m c := by
  funext i
  obtain ⟨b, o, rfl⟩ : ∃ (b o : Fin 4096), i = ix2 b o := ⟨i 0, i 1, eq_ix2 i⟩
  rw [Cert.ReferenceIdeal.RefValue.result_apply]
  exact (Cert.KernelIdeal.Fold.G3_apply m c b o).symm

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on X, W and β, the kernel ends with its result array at `G3` and the reference
    with its result at the same function of the same arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v7_eq]
  exact result_eq m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
